-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_arg7 : FVec F S2x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S2x64 .f32) (main_arg6 : FVec F S2 .f32) (main_arg7 : FVec F S2x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S64x2 : Shape := ⟨2, ![64, 2]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 63
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .bf16⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S100000x64, .f32⟩
  | .hbm, ⟨44, _⟩ => ⟨S100000x64, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .bf16⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S64x2, .f32⟩
  | .hbm, ⟨60, _⟩ => ⟨S64x2, .f32⟩
  | .hbm, ⟨61, _⟩ => ⟨S1x2, .f32⟩
  | .hbm, ⟨62, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x2, .f32⟩
  | .local _ .vmem, ⟨18, _⟩ => ⟨S1x2, .f32⟩
  | .local _ .vmem, ⟨19, _⟩ => ⟨S64x2, .f32⟩
  | .local _ .vmem, ⟨20, _⟩ => ⟨S5000x2, .f32⟩
  | .local _ .vmem, ⟨21, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S2x64_S64x2_1_0 : S2x64.Transposes [1, 0] S64x2
  shapeCasts_S2_S1x2 : S2.ShapeCasts S1x2
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x2.size a ≤ S64x2.size a
  hwx1_3 : ∀ i : grid1.Coords, EltTy.bits .f32 = 32 ∨ (Rect.block (s := S64x2) S64x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S100000x2.size a
  hwx1_6 : ∀ i : grid1.Coords, EltTy.bits .f32 = 32 ∨ (Rect.block (s := S100000x2) S5000x2.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S2x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x2, .f32⟩
  | .hbm, ⟨74, _⟩ => ⟨S100000x2, .f32⟩
  | .hbm, ⟨75, _⟩ => ⟨S1x2, .f32⟩
  | .hbm, ⟨76, _⟩ => ⟨S100000x2, .f32⟩
  | .hbm, ⟨77, _⟩ => ⟨S100000x2, .f32⟩
  | .hbm, ⟨78, _⟩ => ⟨S64x2, .f32⟩
  | .hbm, ⟨79, _⟩ => ⟨S100000x2, .f32⟩
  | .hbm, ⟨80, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«109293_j17532056502368_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«109293_j17532056502368_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibMeanAggLayer.lean ====
/-
  One mean-aggregation graph layer on the extended reals, as a function of whole arrays.

  For an r×k array A of summed neighbour features, an r×1 column s of per-row scales, an r×k array X of the rows' own
  features, two k×n weight matrices Wl, Wr and a 1×n bias row b,
      layer A X s Wl b Wr (p, q) = (∑ c, (A(p, c) · s(p, 0)) · Wl(c, q)) + b(0, q) + ∑ c, X(p, c) · Wr(c, q),
  and reluLayer is that joined entry by entry with the zero word. An entry depends on one row of A, X and s, so a block of
  rows of the three gives the same rows of the layer. A kernel body spells the layer with a column broadcast, two
  products into zero accumulators and a row broadcast; a host program spells it with a quotient by the per-row
  divisor, two dot_generals and two broadcast_in_dims. The two agree because, on the extended reals, a quotient by a
  nonzero y is the product with y⁻¹, and so is the product with the quotient 1 / y — whether or not y is finite.
  Nothing here mentions a program.
-/
import Idealize.ShloMosaic.PureOps.Ideal.Laws
import Idealize.ShloMosaic.Lib.ValueIdx
import Idealize.ShloMosaic.Lib.Pipeline.Value
import proofs.«109293_j17532056502368_2_alg».proof.Proof.LibBlockReads
import proofs.«109293_j17532056502368_2_alg».proof.Proof.LibMatProd
import proofs.«109293_j17532056502368_2_alg».proof.Proof.LibRowReductions
import proofs.«109293_j17532056502368_2_alg».proof.Proof.LibRowVector

open scoped BigOperators

noncomputable section

namespace Cert.Sage

open Idealize.ShloMosaic Idealize.ShloMosaic.ValueIdx Cert.Lib.MatProd

variable {r r' k n : Nat}

/-- Every row of A multiplied by that row's scale. -/
def scaleRows (A : (⟨2, ![r, k]⟩ : Shape).Idx → EReal) (s : (⟨2, ![r, 1]⟩ : Shape).Idx → EReal) :
    (⟨2, ![r, k]⟩ : Shape).Idx → EReal :=
  fun j => A j * s (ix2 (⟨(j 0).val, idx2_lt0 j⟩ : Fin r) (0 : Fin 1))

theorem scaleRows_apply (A : (⟨2, ![r, k]⟩ : Shape).Idx → EReal) (s : (⟨2, ![r, 1]⟩ : Shape).Idx → EReal)
    (p : Fin r) (c : Fin k) : scaleRows A s (ix2 p c) = A (ix2 p c) * s (ix2 p 0) := rfl

/-- The layer without the maximum. -/
def layer (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) : (⟨2, ![r, n]⟩ : Shape).Idx → EReal :=
  fun i => matProd (scaleRows A s) Wl i + b (ix2 (0 : Fin 1) (⟨(i 1).val, idx2_lt1 i⟩ : Fin n)) + matProd X Wr i

theorem layer_apply (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (p : Fin r) (q : Fin n) :
    layer A X s Wl b Wr (ix2 p q)
      = matProd (scaleRows A s) Wl (ix2 p q) + b (ix2 0 q) + matProd X Wr (ix2 p q) := rfl

/-- The layer joined with the zero word. -/
def reluLayer (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) : (⟨2, ![r, n]⟩ : Shape).Idx → EReal :=
  fun i => max (layer A X s Wl b Wr i) (Ideal.ofBits .f32 0x00000000#32)

/-- If row p of A', X', s' is row ρ p of A, X, s, then row p of the layer of the primed arrays is row ρ p of the
    layer of the whole ones. -/
theorem layer_rows (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (ρ : Fin r' → Fin r)
    (hA : ∀ (p : Fin r') (c : Fin k), A' (ix2 p c) = A (ix2 (ρ p) c))
    (hX : ∀ (p : Fin r') (c : Fin k), X' (ix2 p c) = X (ix2 (ρ p) c))
    (hs : ∀ p : Fin r', s' (ix2 p 0) = s (ix2 (ρ p) 0)) (p : Fin r') (q : Fin n) :
    layer A' X' s' Wl b Wr (ix2 p q) = layer A X s Wl b Wr (ix2 (ρ p) q) := by
  rw [layer_apply, layer_apply,
    matProd_block (scaleRows A s) (scaleRows A' s') Wl Wl p q (ρ p) q
      (fun c => by rw [scaleRows_apply, scaleRows_apply, hA p c, hs p]) (fun _ => rfl),
    matProd_block X X' Wr Wr p q (ρ p) q (hX p) (fun _ => rfl)]

theorem reluLayer_rows (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (ρ : Fin r' → Fin r)
    (hA : ∀ (p : Fin r') (c : Fin k), A' (ix2 p c) = A (ix2 (ρ p) c))
    (hX : ∀ (p : Fin r') (c : Fin k), X' (ix2 p c) = X (ix2 (ρ p) c))
    (hs : ∀ p : Fin r', s' (ix2 p 0) = s (ix2 (ρ p) 0)) (p : Fin r') (q : Fin n) :
    reluLayer A' X' s' Wl b Wr (ix2 p q) = reluLayer A X s Wl b Wr (ix2 (ρ p) q) := by
  show max _ _ = max _ _
  rw [layer_rows A X s A' X' s' Wl b Wr ρ hA hX hs p q]

/-! ## The kernel body's spelling -/

/-- The body: the rows of A times the broadcast column of scales, two products into zero accumulators, the bias row
    broadcast down the rows. -/
theorem body_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (a x : FVec Ideal ⟨2, ![r, k]⟩ .f32) (s : FVec Ideal ⟨2, ![r, 1]⟩ .f32) (wl wr : FVec Ideal ⟨2, ![k, n]⟩ .f32)
    (b : FVec Ideal ⟨2, ![1, n]⟩ .f32) (hs : (⟨2, ![r, 1]⟩ : Shape).Broadcasts ⟨2, ![r, k]⟩)
    (hb : (⟨2, ![1, n]⟩ : Shape).Broadcasts ⟨2, ![r, n]⟩) (h16 : FTy.bf16.bits < FTy.f32.bits) :
    addf (addf (matmul d none (truncf .bf16 (mulf a (broadcastTo ⟨2, ![r, k]⟩ s hs)) h16) (truncf .bf16 wl h16)
        (constant ⟨2, ![r, n]⟩ .f32 0x00000000#32)) (broadcastTo ⟨2, ![r, n]⟩ b hb))
      (matmul d none (truncf .bf16 x h16) (truncf .bf16 wr h16) (constant ⟨2, ![r, n]⟩ .f32 0x00000000#32))
      = layer a x s wl b wr := by
  rw [matmul_zero_eq_matProd d hlc hrc hln hrn hlb hrb, matmul_zero_eq_matProd d hlc hrc hln hrn hlb hrb]
  funext i
  obtain ⟨p, q, rfl⟩ : ∃ (p : Fin r) (q : Fin n), i = ix2 p q := ⟨i 0, i 1, eq_ix2 i⟩
  rw [addf_apply, addf_apply, Cert.Lib.BlockReads.broadcast_row_apply, layer_apply]
  have hA : ∀ c : Fin k, (truncf .bf16 (mulf a (broadcastTo ⟨2, ![r, k]⟩ s hs)) h16 : FVec Ideal _ .bf16) (ix2 p c)
      = scaleRows a s (ix2 p c) := fun c => by
    show a (ix2 p c) * broadcastTo ⟨2, ![r, k]⟩ s hs (ix2 p c) = _
    rw [Cert.Lib.RowReductions.broadcast_col_apply, scaleRows_apply]
  rw [matProd_block (scaleRows a s) _ wl (truncf .bf16 wl h16) p q p q hA (fun _ => rfl),
    matProd_block x (truncf .bf16 x h16) wr (truncf .bf16 wr h16) p q p q (fun _ => rfl) (fun _ => rfl)]

/-- The same joined with a splat of the zero word. -/
theorem body_reluLayer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (a x : FVec Ideal ⟨2, ![r, k]⟩ .f32) (s : FVec Ideal ⟨2, ![r, 1]⟩ .f32) (wl wr : FVec Ideal ⟨2, ![k, n]⟩ .f32)
    (b : FVec Ideal ⟨2, ![1, n]⟩ .f32) (hs : (⟨2, ![r, 1]⟩ : Shape).Broadcasts ⟨2, ![r, k]⟩)
    (hb : (⟨2, ![1, n]⟩ : Shape).Broadcasts ⟨2, ![r, n]⟩) (h16 : FTy.bf16.bits < FTy.f32.bits) :
    maximumf (addf (addf (matmul d none (truncf .bf16 (mulf a (broadcastTo ⟨2, ![r, k]⟩ s hs)) h16) (truncf .bf16 wl h16)
        (constant ⟨2, ![r, n]⟩ .f32 0x00000000#32)) (broadcastTo ⟨2, ![r, n]⟩ b hb))
      (matmul d none (truncf .bf16 x h16) (truncf .bf16 wr h16) (constant ⟨2, ![r, n]⟩ .f32 0x00000000#32)))
      (broadcast ⟨2, ![r, n]⟩ (Scalar.ofBits (F := Ideal) .f32 0x00000000#32))
      = reluLayer a x s wl b wr := by
  rw [body_layer d hlc hrc hln hrn hlb hrb a x s wl wr b hs hb h16]
  funext i
  rw [maximumf_apply]
  rfl

/-! ## The quotient and the scale -/

/-- A quotient by a nonzero y is the product with the quotient of 1 by y: both are the product with y⁻¹. -/
theorem div_eq_mul_one_div (a y : EReal) (hy : y ≠ 0) : Ideal.div a y = a * Ideal.div 1 y := by
  rw [Ideal.div, Ideal.div, if_neg hy, if_neg hy, one_mul]

/-- The single-precision word 3F800000 is the number 1. -/
theorem one_f32 : Ideal.ofBits .f32 0x3F800000#32 = (1 : EReal) :=
  IdealRules.sign_bit.ideal_onePat .f32

/-- The larger of anything and 1 is not 0. -/
theorem max_one_ne_zero (x : EReal) : max x (1 : EReal) ≠ 0 :=
  ne_of_gt (lt_of_lt_of_le zero_lt_one (le_max_right x 1))

/-! ## The host's spelling -/

/-- The reference: the rows of A divided by the per-row divisor (a vector broadcast to a column and across the
    columns), two dot_generals, the bias vector broadcast to a row and down the rows. When the divisor is nowhere 0
    this is the layer with the scales 1 / divisor, the column a re-shaping of the vector of quotients. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A X : FVec Ideal ⟨2, ![r, k]⟩ .f32) (cm ones : FVec Ideal ⟨1, ![r]⟩ .f32) (Wl Wr : FVec Ideal ⟨2, ![k, n]⟩ .f32)
    (b : FVec Ideal ⟨1, ![n]⟩ .f32)
    (h1 : (⟨1, ![r]⟩ : Shape).BroadcastsInDim ⟨2, ![r, 1]⟩ ![0])
    (h2 : (⟨2, ![r, 1]⟩ : Shape).BroadcastsInDim ⟨2, ![r, k]⟩ ![0, 1])
    (h3 : (⟨1, ![n]⟩ : Shape).BroadcastsInDim ⟨2, ![1, n]⟩ ![1])
    (h4 : (⟨2, ![1, n]⟩ : Shape).BroadcastsInDim ⟨2, ![r, n]⟩ ![0, 1])
    (hc : (⟨1, ![r]⟩ : Shape).ShapeCasts ⟨2, ![r, 1]⟩)
    (hcm : ∀ p : Fin r, cm (ix1 p) ≠ 0) (hones : ∀ p : Fin r, ones (ix1 p) = 1) :
    addf (addf (FloatOps.dotGeneral d prec sched
        (Host.divf A (broadcastInDim ⟨2, ![r, k]⟩ ![0, 1] h2 (broadcastInDim ⟨2, ![r, 1]⟩ ![0] h1 cm))) Wl)
        (broadcastInDim ⟨2, ![r, n]⟩ ![0, 1] h4 (broadcastInDim ⟨2, ![1, n]⟩ ![1] h3 b)))
      (FloatOps.dotGeneral d prec sched X Wr)
      = layer A X (shapeCast ⟨2, ![r, 1]⟩ (Host.divf ones cm) hc) Wl (broadcastInDim ⟨2, ![1, n]⟩ ![1] h3 b) Wr := by
  rw [dotGeneral_eq_matProd d hlc hrc hln hrn hlb hrb, dotGeneral_eq_matProd d hlc hrc hln hrn hlb hrb]
  funext i
  obtain ⟨p, q, rfl⟩ : ∃ (p : Fin r) (q : Fin n), i = ix2 p q := ⟨i 0, i 1, eq_ix2 i⟩
  rw [addf_apply, addf_apply, Cert.Lib.RowVector.bcastInDim_rows_apply, layer_apply]
  have hA : ∀ c : Fin k, (Host.divf A (broadcastInDim ⟨2, ![r, k]⟩ ![0, 1] h2
      (broadcastInDim ⟨2, ![r, 1]⟩ ![0] h1 cm)) : FVec Ideal _ .f32) (ix2 p c)
      = scaleRows A (shapeCast ⟨2, ![r, 1]⟩ (Host.divf ones cm) hc) (ix2 p c) := fun c => by
    show Ideal.div (A (ix2 p c)) (broadcastInDim ⟨2, ![r, k]⟩ ![0, 1] h2
      (broadcastInDim ⟨2, ![r, 1]⟩ ![0] h1 cm) (ix2 p c)) = _
    rw [Cert.Lib.RowReductions.bcastInDim_cols_apply, Cert.Lib.RowReductions.bcastInDim_col_apply, scaleRows_apply,
      Cert.Lib.RowReductions.shapeCast_col_apply]
    show _ = A (ix2 p c) * Ideal.div (ones (ix1 p)) (cm (ix1 p))
    rw [hones p, div_eq_mul_one_div _ _ (hcm p)]
  rw [matProd_block (scaleRows A (shapeCast ⟨2, ![r, 1]⟩ (Host.divf ones cm) hc)) _ Wl _ p q p q hA (fun _ => rfl)]

/-- The reference's maximum with a broadcast zero constant, after the layer. -/
theorem host_reluLayer (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (h0 : (⟨0, ![]⟩ : Shape).BroadcastsInDim ⟨2, ![r, n]⟩ ![]) :
    maximumf (F := Ideal) (s := ⟨2, ![r, n]⟩) (φ := .f32) (layer A X s Wl b Wr)
      (broadcastInDim ⟨2, ![r, n]⟩ ![] h0 (constant (F := Ideal) ⟨0, ![]⟩ .f32 0x00000000#32))
      = reluLayer A X s Wl b Wr := by
  funext i
  rw [maximumf_apply, Cert.Lib.RowReductions.bcastInDim_scalar_apply]
  rfl

/-! ## A block of consecutive rows -/

/-- A block of r' consecutive rows starting at row o: if the primed arrays hold rows o, o+1, … of A, X and s, and the
    same weights and bias, then the layer of the block at y is the layer of the whole arrays at the index i that
    lies o rows below y in the same column. -/
theorem layer_block (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl Wl' : (⟨2, ![k, n]⟩ : Shape).Idx → EReal) (b b' : (⟨2, ![1, n]⟩ : Shape).Idx → EReal)
    (Wr Wr' : (⟨2, ![k, n]⟩ : Shape).Idx → EReal) (o : Nat) (ho : o + r' ≤ r)
    (hA : ∀ (p : Fin r') (c : Fin k), A' (ix2 p c) = A (ix2 (⟨o + p.val, by omega⟩ : Fin r) c))
    (hX : ∀ (p : Fin r') (c : Fin k), X' (ix2 p c) = X (ix2 (⟨o + p.val, by omega⟩ : Fin r) c))
    (hs : ∀ p : Fin r', s' (ix2 p 0) = s (ix2 (⟨o + p.val, by omega⟩ : Fin r) 0))
    (hWl : Wl' = Wl) (hb : b' = b) (hWr : Wr' = Wr)
    (y : (⟨2, ![r', n]⟩ : Shape).Idx) (i : (⟨2, ![r, n]⟩ : Shape).Idx)
    (h0 : (i 0).val = o + (y 0).val) (h1 : (i 1).val = (y 1).val) :
    layer A' X' s' Wl' b' Wr' y = layer A X s Wl b Wr i := by
  subst hWl hb hWr
  obtain ⟨p, q, rfl⟩ : ∃ (p : Fin r') (q : Fin n), y = ix2 p q := ⟨y 0, y 1, eq_ix2 y⟩
  have hp : o + p.val < r := by have := p.isLt; omega
  obtain ⟨p', q', rfl⟩ : ∃ (p' : Fin r) (q' : Fin n), i = ix2 p' q' := ⟨i 0, i 1, eq_ix2 i⟩
  have e0 : p' = (⟨o + p.val, hp⟩ : Fin r) := Fin.ext h0
  have e1 : q' = q := Fin.ext h1
  rw [e0, e1]
  exact layer_rows A X s A' X' s' Wl' b' Wr' (fun p => ⟨o + p.val, by have := p.isLt; omega⟩) hA hX hs p q

theorem reluLayer_block (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl Wl' : (⟨2, ![k, n]⟩ : Shape).Idx → EReal) (b b' : (⟨2, ![1, n]⟩ : Shape).Idx → EReal)
    (Wr Wr' : (⟨2, ![k, n]⟩ : Shape).Idx → EReal) (o : Nat) (ho : o + r' ≤ r)
    (hA : ∀ (p : Fin r') (c : Fin k), A' (ix2 p c) = A (ix2 (⟨o + p.val, by omega⟩ : Fin r) c))
    (hX : ∀ (p : Fin r') (c : Fin k), X' (ix2 p c) = X (ix2 (⟨o + p.val, by omega⟩ : Fin r) c))
    (hs : ∀ p : Fin r', s' (ix2 p 0) = s (ix2 (⟨o + p.val, by omega⟩ : Fin r) 0))
    (hWl : Wl' = Wl) (hb : b' = b) (hWr : Wr' = Wr)
    (y : (⟨2, ![r', n]⟩ : Shape).Idx) (i : (⟨2, ![r, n]⟩ : Shape).Idx)
    (h0 : (i 0).val = o + (y 0).val) (h1 : (i 1).val = (y 1).val) :
    reluLayer A' X' s' Wl' b' Wr' y = reluLayer A X s Wl b Wr i := by
  show max _ _ = max _ _
  rw [layer_block A X s A' X' s' Wl Wl' b b' Wr Wr' o ho hA hX hs hWl hb hWr y i h0 h1]

end Cert.Sage

end
-- ==== Proof.KRegions.lean ====
/-
  What each of the kernel's two regions leaves in its output array, as a function of the arrays the region was
  entered with. A region runs the layer body at 20 grid points; point t loads rows 5000·t … 5000·t + 4999 of the
  aggregated features, of the rows' own features and of the column of scales, and the whole weight matrices and bias
  row, and writes the layer of these blocks to the same rows of the output. An entry of the layer depends on one row
  of the three row-blocked inputs, so what point t writes is rows 5000·t … of the layer of the whole arrays, and the
  20 blocks cover the output: it ends holding that layer (joined with zero in the first region).
-/
import proofs.«109293_j17532056502368_2_alg».proof.Proof.Gen.KernelIdeal.Frame
import proofs.«109293_j17532056502368_2_alg».proof.Proof.LibMeanAggLayer
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The body's one stored value is the layer joined with zero of the blocks it loaded. -/
theorem pay0_eq (a : Vec Ideal S5000x64 .f32) (s : Vec Ideal S5000x1 .f32) (x : Vec Ideal S5000x64 .f32)
    (wl wr : Vec Ideal S64x64 .f32) (b : Vec Ideal S1x64 .f32) :
    k0_pay1 a s x wl wr b = reluLayer a x s wl b wr := by
  unfold k0_pay1
  simp only [shapeCast_self]
  exact body_reluLayer _ rfl rfl rfl rfl rfl rfl a x s wl wr b _ _ _

/-- The printed index maps over the 20 grid points: the three row-blocked inputs move with the output, whose block
    index is the point's number; the weights and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t — rows 5000·t to 5000·t + 4999 — of the layer of the whole arrays the region
    was entered with: each row-blocked input's block holds those rows of its array, and the weights' and the bias's
    blocks are their whole arrays. -/
theorem flushed0_eq (c : Dev nD) (t : Fin cfg0.N) :
    (dat0 V c).flushed 6 t = ((cfg0.win 6).blk t).view.read (Elt Ideal)
      (reluLayer (V c main_v24 : S100000x64.Idx → EReal) (V c main_arg0 : S100000x64.Idx → EReal)
        (V c main_v12 : S100000x1.Idx → EReal) (V c main_v25 : S64x64.Idx → EReal) (V c main_v27 : S1x64.Idx → EReal)
        (V c main_v26 : S64x64.Idx → EReal)) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz,
    View.ld_unit_zero (S := S64x64) hz, View.ld_unit_zero (S := S1x64) hz]
  rw [pay0_eq]
  obtain ⟨e00, e01, e10, e11, e20, e21, e30, e31, e40, e41, e50, e51, e60, e61⟩ := idx_facts0 t
  have ht : t.val < 20 := lt_of_lt_of_eq t.isLt N_0
  funext y
  show _ = reluLayer (V c main_v24 : S100000x64.Idx → EReal) (V c main_arg0 : S100000x64.Idx → EReal)
        (V c main_v12 : S100000x1.Idx → EReal) (V c main_v25 : S64x64.Idx → EReal) (V c main_v27 : S1x64.Idx → EReal)
        (V c main_v26 : S64x64.Idx → EReal) (((cfg0.win 6).blk t).view.emb y)
  refine reluLayer_block _ _ _ _ _ _ _ _ _ _ _ _ (5000 * t.val) (by omega) ?_ ?_ ?_ ?_ ?_ ?_ y _ ?_ ?_
  · intro p q
    show V c main_v24 (((cfg0.win 0).blk t).view.emb (ix2 p q)) = _
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 64 + 1 * q.val = q.val; omega
  · intro p q
    show V c main_arg0 (((cfg0.win 1).blk t).view.emb (ix2 p q)) = _
    refine congrArg _ (funext fun a => Fin.ext ?_)
    match a with
    | ⟨0, _⟩ => show win0_1.index t (0 : Fin 2) * 5000 + 1 * p.val = 5000 * t.val + p.val; omega
    | ⟨1, _⟩ => show win0_1.index t (1 : Fin 2) * 64 + 1 * q.val = q.val; omega
  · intro p
    show V c main_v12 (((cfg0.win 2).blk t).view.emb (ix2 p 0)) = _
    refine congrArg _ (funext fun a => Fin.ext ?_)
    match a with
    | ⟨0, _⟩ => show win0_2.index t (0 : Fin 2) * 5000 + 1 * p.val = 5000 * t.val + p.val; omega
    | ⟨1, _⟩ => show win0_2.index t (1 : Fin 2) * 1 + 1 * 0 = 0; omega
  · funext j
    show V c main_v25 (((cfg0.win 3).blk t).view.emb j) = _
    refine congrArg _ (funext fun a => Fin.ext ?_)
    match a with
    | ⟨0, _⟩ => show win0_3.index t (0 : Fin 2) * 64 + 1 * (j 0).val = (j 0).val; omega
    | ⟨1, _⟩ => show win0_3.index t (1 : Fin 2) * 64 + 1 * (j 1).val = (j 1).val; omega
  · funext j
    show V c main_v27 (((cfg0.win 4).blk t).view.emb j) = _
    refine congrArg _ (funext fun a => Fin.ext ?_)
    match a with
    | ⟨0, _⟩ => show win0_4.index t (0 : Fin 2) * 1 + 1 * (j 0).val = (j 0).val; omega
    | ⟨1, _⟩ => show win0_4.index t (1 : Fin 2) * 64 + 1 * (j 1).val = (j 1).val; omega
  · funext j
    show V c main_v26 (((cfg0.win 5).blk t).view.emb j) = _
    refine congrArg _ (funext fun a => Fin.ext ?_)
    match a with
    | ⟨0, _⟩ => show win0_5.index t (0 : Fin 2) * 64 + 1 * (j 0).val = (j 0).val; omega
    | ⟨1, _⟩ => show win0_5.index t (1 : Fin 2) * 64 + 1 * (j 1).val = (j 1).val; omega
  · show win0_6.index t (0 : Fin 2) * 5000 + 1 * (y 0).val = 5000 * t.val + (y 0).val; omega
  · show win0_6.index t (1 : Fin 2) * 64 + 1 * (y 1).val = (y 1).val; omega

/-- An index of the output array is in point t's block exactly when each coordinate is in the block's range. -/
theorem mem_blk0 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v28).slice (win0_6.rect t)).set ↔ _
  rw [View.set_slice_whole, Rect.mem_set_unit]
  exact Iff.rfl

/-- Row r of the output lies in the block of point r / 5000, so the 20 blocks cover the array, and it ends holding the
    layer of the arrays the region was entered with. -/
theorem final0 (c : Dev nD) :
    (dat0 V c).arrAt 6 cfg0.N = reluLayer (V c main_v24 : S100000x64.Idx → EReal) (V c main_arg0 : S100000x64.Idx → EReal)
        (V c main_v12 : S100000x1.Idx → EReal) (V c main_v25 : S64x64.Idx → EReal) (V c main_v27 : S1x64.Idx → EReal)
        (V c main_v26 : S64x64.Idx → EReal) :=
  (dat0 V c).arrAt_eq_of_cover 6 _ (fun t _ => flushed0_eq V c t) fun i => by
    have hi0 : (i 0).val < 100000 := (i 0).isLt
    have hi1 : (i 1).val < 64 := (i 1).isLt
    let t : Fin cfg0.N := ⟨(i 0).val / 5000, by rw [show cfg0.N = 20 from N_0]; omega⟩
    obtain ⟨-, -, -, -, -, -, -, -, -, -, -, -, e60, e61⟩ := idx_facts0 t
    have ht : t.val = (i 0).val / 5000 := rfl
    refine ⟨t, flush0_6 t, ?_⟩
    rw [mem_blk0]
    intro a
    match a with
    | ⟨0, _⟩ => show win0_6.index t (0 : Fin 2) * 5000 ≤ (i 0).val ∧ (i 0).val < win0_6.index t (0 : Fin 2) * 5000 + 5000; omega
    | ⟨1, _⟩ => show win0_6.index t (1 : Fin 2) * 64 ≤ (i 1).val ∧ (i 1).val < win0_6.index t (1 : Fin 2) * 64 + 64; omega

/-! ## Region 1 -/

/-- The body's one stored value is the layer of the blocks it loaded. -/
theorem pay1_eq (a : Vec Ideal S5000x64 .f32) (s : Vec Ideal S5000x1 .f32) (x : Vec Ideal S5000x64 .f32)
    (wl wr : Vec Ideal S64x2 .f32) (b : Vec Ideal S1x2 .f32) :
    k1_pay1 a s x wl wr b = layer a x s wl b wr := by
  unfold k1_pay1
  simp only [shapeCast_self]
  exact body_layer _ rfl rfl rfl rfl rfl rfl a x s wl wr b _ _ _

/-- The printed index maps over the 20 grid points: the three row-blocked inputs move with the output, whose block
    index is the point's number; the weights and the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t — rows 5000·t to 5000·t + 4999 — of the layer of the whole arrays the region
    was entered with: each row-blocked input's block holds those rows of its array, and the weights' and the bias's
    blocks are their whole arrays. -/
theorem flushed1_eq (c : Dev nD) (t : Fin cfg1.N) :
    (dat1 V c).flushed 6 t = ((cfg1.win 6).blk t).view.read (Elt Ideal)
      (layer (V c main_v40 : S100000x64.Idx → EReal) (V c main_v28 : S100000x64.Idx → EReal)
        (V c main_v12 : S100000x1.Idx → EReal) (V c main_v41 : S64x2.Idx → EReal) (V c main_v43 : S1x2.Idx → EReal)
        (V c main_v42 : S64x2.Idx → EReal)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz,
    View.ld_unit_zero (S := S64x2) hz, View.ld_unit_zero (S := S1x2) hz]
  rw [pay1_eq]
  obtain ⟨e00, e01, e10, e11, e20, e21, e30, e31, e40, e41, e50, e51, e60, e61⟩ := idx_facts1 t
  have ht : t.val < 20 := lt_of_lt_of_eq t.isLt N_1
  funext y
  show _ = layer (V c main_v40 : S100000x64.Idx → EReal) (V c main_v28 : S100000x64.Idx → EReal)
        (V c main_v12 : S100000x1.Idx → EReal) (V c main_v41 : S64x2.Idx → EReal) (V c main_v43 : S1x2.Idx → EReal)
        (V c main_v42 : S64x2.Idx → EReal) (((cfg1.win 6).blk t).view.emb y)
  refine layer_block _ _ _ _ _ _ _ _ _ _ _ _ (5000 * t.val) (by omega) ?_ ?_ ?_ ?_ ?_ ?_ y _ ?_ ?_
  · intro p q
    show V c main_v40 (((cfg1.win 0).blk t).view.emb (ix2 p q)) = _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 64 + 1 * q.val = q.val; omega
  · intro p q
    show V c main_v28 (((cfg1.win 1).blk t).view.emb (ix2 p q)) = _
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 64 + 1 * q.val = q.val; omega
  · intro p
    show V c main_v12 (((cfg1.win 2).blk t).view.emb (ix2 p 0)) = _
    refine congrArg _ (funext fun a => Fin.ext ?_)
    match a with
    | ⟨0, _⟩ => show win1_2.index t (0 : Fin 2) * 5000 + 1 * p.val = 5000 * t.val + p.val; omega
    | ⟨1, _⟩ => show win1_2.index t (1 : Fin 2) * 1 + 1 * 0 = 0; omega
  · funext j
    show V c main_v41 (((cfg1.win 3).blk t).view.emb j) = _
    refine congrArg _ (funext fun a => Fin.ext ?_)
    match a with
    | ⟨0, _⟩ => show win1_3.index t (0 : Fin 2) * 64 + 1 * (j 0).val = (j 0).val; omega
    | ⟨1, _⟩ => show win1_3.index t (1 : Fin 2) * 2 + 1 * (j 1).val = (j 1).val; omega
  · funext j
    show V c main_v43 (((cfg1.win 4).blk t).view.emb j) = _
    refine congrArg _ (funext fun a => Fin.ext ?_)
    match a with
    | ⟨0, _⟩ => show win1_4.index t (0 : Fin 2) * 1 + 1 * (j 0).val = (j 0).val; omega
    | ⟨1, _⟩ => show win1_4.index t (1 : Fin 2) * 2 + 1 * (j 1).val = (j 1).val; omega
  · funext j
    show V c main_v42 (((cfg1.win 5).blk t).view.emb j) = _
    refine congrArg _ (funext fun a => Fin.ext ?_)
    match a with
    | ⟨0, _⟩ => show win1_5.index t (0 : Fin 2) * 64 + 1 * (j 0).val = (j 0).val; omega
    | ⟨1, _⟩ => show win1_5.index t (1 : Fin 2) * 2 + 1 * (j 1).val = (j 1).val; omega
  · show win1_6.index t (0 : Fin 2) * 5000 + 1 * (y 0).val = 5000 * t.val + (y 0).val; omega
  · show win1_6.index t (1 : Fin 2) * 2 + 1 * (y 1).val = (y 1).val; omega

/-- An index of the output array is in point t's block exactly when each coordinate is in the block's range. -/
theorem mem_blk1 (t : Fin cfg1.N) (i : S100000x2.Idx) :
    i ∈ ((cfg1.win 6).blk t).view.set ↔ ∀ a : Fin 2, win1_6.index t a * S5000x2.size a ≤ (i a).val
      ∧ (i a).val < win1_6.index t a * S5000x2.size a + S5000x2.size a := by
  show i ∈ ((View.whole main_v44).slice (win1_6.rect t)).set ↔ _
  rw [View.set_slice_whole, Rect.mem_set_unit]
  exact Iff.rfl

/-- Row r of the output lies in the block of point r / 5000, so the 20 blocks cover the array, and it ends holding the
    layer of the arrays the region was entered with. -/
theorem final1 (c : Dev nD) :
    (dat1 V c).arrAt 6 cfg1.N = layer (V c main_v40 : S100000x64.Idx → EReal) (V c main_v28 : S100000x64.Idx → EReal)
        (V c main_v12 : S100000x1.Idx → EReal) (V c main_v41 : S64x2.Idx → EReal) (V c main_v43 : S1x2.Idx → EReal)
        (V c main_v42 : S64x2.Idx → EReal) :=
  (dat1 V c).arrAt_eq_of_cover 6 _ (fun t _ => flushed1_eq V c t) fun i => by
    have hi0 : (i 0).val < 100000 := (i 0).isLt
    have hi1 : (i 1).val < 2 := (i 1).isLt
    let t : Fin cfg1.N := ⟨(i 0).val / 5000, by rw [show cfg1.N = 20 from N_1]; omega⟩
    obtain ⟨-, -, -, -, -, -, -, -, -, -, -, -, e60, e61⟩ := idx_facts1 t
    have ht : t.val = (i 0).val / 5000 := rfl
    refine ⟨t, flush1_6 t, ?_⟩
    rw [mem_blk1]
    intro a
    match a with
    | ⟨0, _⟩ => show win1_6.index t (0 : Fin 2) * 5000 ≤ (i 0).val ∧ (i 0).val < win1_6.index t (0 : Fin 2) * 5000 + 5000; omega
    | ⟨1, _⟩ => show win1_6.index t (1 : Fin 2) * 2 ≤ (i 1).val ∧ (i 1).val < win1_6.index t (1 : Fin 2) * 2 + 2; omega

end Cert.KernelIdeal.Regions

end
-- ==== Proof.KRun.lean ====
/-
  The kernel program's run with its result named. @main is four segments: the host operations before the first
  region, the first region, the host operations between the regions, the second region. Launched from a memory m,
  every weakly fair execution terminates without a fault, and at the end every buffer the program's host side can
  name holds the contents the segments' fold gives it: the arguments what they held at launch, and the result buffer
  what the second region's write-backs leave in it.
-/
import proofs.«109293_j17532056502368_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result buffer at the last boundary's contents and the arguments as launched. -/
theorem run : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.KNet.lean ====
/-
  The two-layer network the kernel program computes, as pure functions of the argument arrays on the extended reals.

  From the 2×E array of edges: the destination ids as an E×1 column, and the source ids, a negative one moved up by the
  number of nodes, as an E×1 column. The count of edges into each node is the scatter-sum of ones at the destinations;
  the divisor is the larger of the count and 1, and the column of scales holds 1 / divisor. The aggregation of an
  N×64 array h is the scatter-sum, at the destinations, of the rows of h gathered at the sources. The hidden layer is the
  layer (joined with zero) of the aggregation of x, of x and of the scales, with the first weights; the output is the
  layer of the aggregation of the hidden layer, of the hidden layer and of the same scales, with the second weights.
-/
import proofs.«109293_j17532056502368_2_alg».proof.KernelIdeal
import proofs.«109293_j17532056502368_2_alg».proof.Proof.Gen.KernelIdeal
import proofs.«109293_j17532056502368_2_alg».proof.Proof.LibMeanAggLayer

noncomputable section

namespace Cert.KernelIdeal.Net

open Idealize.ShloMosaic Cert.KernelIdeal Cert.KernelIdeal.Facts₀ Cert.Sage

/-- Row 1 of the edges, the destination ids, as a vector. -/
def dstVec (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- Row 0 of the edges, the source ids, as a vector. -/
def srcVec (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The destination ids as an E×1 column. -/
def dstCol (e : (⟨S2x1600000, .i32⟩ : BufTy).Contents (Elt Ideal)) : (⟨S1600000x1, .i32⟩ : BufTy).Contents (Elt Ideal) :=
  broadcastInDim S1600000x1 ![0] bcast_S1600000_S1600000x1_0 (dstVec e)

/-- The source ids, a negative one moved up by 100000, as an E×1 column. -/
def srcCol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcVec e) (broadcastInDim S1600000 ![] bcast_S_S1600000 (constantI S_ 32 0#32)))
      (addi (srcVec e) (broadcastInDim S1600000 ![] bcast_S_S1600000 (constantI S_ 32 100000#32))) (srcVec e))

/-- The vector of ones over the nodes. -/
def onesVec : FVec Ideal S100000 .f32 :=
  broadcastInDim S100000 ![] bcast_S_S100000 (constant (F := Ideal) S_ .f32 0x3F800000#32)

/-- The larger of each node's number of incoming edges and 1. -/
def divisor (e : (⟨S2x1600000, .i32⟩ : BufTy).Contents (Elt Ideal)) : FVec Ideal S100000 .f32 :=
  maximumf (Host.scatterAdd scatter_S100000_S1600000x1_S1600000_n_0_0_1
      (broadcastInDim S100000 ![] bcast_S_S100000 (constant (F := Ideal) S_ .f32 0x00000000#32)) (dstCol e)
      (broadcastInDim S1600000 ![] bcast_S_S1600000 (constant (F := Ideal) S_ .f32 0x3F800000#32)))
    onesVec

/-- The column of scales 1 / divisor. -/
def scales (e : (⟨S2x1600000, .i32⟩ : BufTy).Contents (Elt Ideal)) : FVec Ideal S100000x1 .f32 :=
  shapeCast S100000x1 (Host.divf onesVec (divisor e)) shapeCasts_S100000_S100000x1

/-- The rows of h gathered at the sources and summed at the destinations. -/
def aggregate (e : (⟨S2x1600000, .i32⟩ : BufTy).Contents (Elt Ideal)) (h : FVec Ideal S100000x64 .f32) :
    FVec Ideal S100000x64 .f32 :=
  Host.scatterAdd scatter_S100000x64_S1600000x1_S1600000x64_1_0_0_1
    (broadcastInDim S100000x64 ![] bcast_S_S100000x64 (constant (F := Ideal) S_ .f32 0x00000000#32)) (dstCol e)
    (Host.gather gather_S100000x64_S1600000x1_S1600000x64_1_0_n_n_0_1_164 h (srcCol e))

/-- The hidden layer. -/
def hidden (x : FVec Ideal S100000x64 .f32) (e : (⟨S2x1600000, .i32⟩ : BufTy).Contents (Elt Ideal))
    (w1l : FVec Ideal S64x64 .f32) (b1 : FVec Ideal S64 .f32) (w1r : FVec Ideal S64x64 .f32) : FVec Ideal S100000x64 .f32 :=
  reluLayer (aggregate e x) x (scales e) (transpose S64x64 [1, 0] w1l transposes_S64x64_S64x64_1_0)
    (shapeCast S1x64 b1 shapeCasts_S64_S1x64) (transpose S64x64 [1, 0] w1r transposes_S64x64_S64x64_1_0)

/-- The output. -/
def output (x : FVec Ideal S100000x64 .f32) (e : (⟨S2x1600000, .i32⟩ : BufTy).Contents (Elt Ideal))
    (w1l : FVec Ideal S64x64 .f32) (b1 : FVec Ideal S64 .f32) (w1r : FVec Ideal S64x64 .f32)
    (w2l : FVec Ideal S2x64 .f32) (b2 : FVec Ideal S2 .f32) (w2r : FVec Ideal S2x64 .f32) : FVec Ideal S100000x2 .f32 :=
  layer (aggregate e (hidden x e w1l b1 w1r)) (hidden x e w1l b1 w1r) (scales e)
    (transpose S64x2 [1, 0] w2l transposes_S2x64_S64x2_1_0) (shapeCast S1x2 b2 shapeCasts_S2_S1x2)
    (transpose S64x2 [1, 0] w2r transposes_S2x64_S64x2_1_0)

/-- The divisor is nowhere 0: it is at least 1. -/
theorem divisor_ne_zero (e : (⟨S2x1600000, .i32⟩ : BufTy).Contents (Elt Ideal)) (i : S100000.Idx) : divisor e i ≠ 0 := by
  unfold divisor onesVec
  rw [ValueIdx.maximumf_apply, Cert.Lib.RowVector.bcastInDim_scalar_apply, ValueIdx.constant_apply, one_f32]
  exact max_one_ne_zero _

theorem onesVec_apply (i : S100000.Idx) : onesVec i = 1 := by
  unfold onesVec
  rw [Cert.Lib.RowVector.bcastInDim_scalar_apply, ValueIdx.constant_apply, one_f32]

end Cert.KernelIdeal.Net

end
-- ==== Proof.KValue.lean ====
/-
  The kernel program's result as the network's output. The host operations before the first region build, from the
  argument arrays, the aggregation of x, the column of scales, the transposed weights and the bias row; the first
  region leaves the hidden layer in its output array; the host operations between the regions build the aggregation
  of the hidden layer and the second layer's transposed weights and bias row, the edge vectors and the scales being
  the buffers the first stretch wrote and no region touched; the second region leaves the output layer. A change of
  float format is the identity on the extended reals, so the sixteen-bit copies the program gathers from are the arrays
  themselves.
-/
import proofs.«109293_j17532056502368_2_alg».proof.Proof.Gen.KernelIdeal.Frame
import proofs.«109293_j17532056502368_2_alg».proof.Proof.KRegions
import proofs.«109293_j17532056502368_2_alg».proof.Proof.KRun
import proofs.«109293_j17532056502368_2_alg».proof.Proof.KNet
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen Cert.KernelIdeal.Net Cert.Sage

variable (m : (ℓ : Loc nD τ sig) → Buf (Elt Ideal) ℓ) (ρ : Dev nD → PrngReg)

/-- A change of float format is the identity on the extended reals: gathering from the sixteen-bit copy of an array
    and widening the rows is gathering from the array. -/
theorem gather_formats {s si t : Shape} {w : Nat} (d : GatherDims s si t) (x : FVec Ideal s .f32) (idx : IVec si w)
    (h : FTy.bf16.bits < FTy.f32.bits) :
    (extf .f32 (Host.gather d (truncf .bf16 x h : FVec Ideal s .bf16) idx : FVec Ideal t .bf16) h : FVec Ideal t .f32)
      = Host.gather d x idx := rfl

/-! ## What the first region is entered with -/

theorem e0_agg (c : Dev nD) : (V1 m ρ c main_v24 : S100000x64.Idx → EReal) = aggregate (m ((c : Thread nD τ).loc main_arg1)) (m ((c : Thread nD τ).loc main_arg0)) := by
  dsimp only [V1, W1, hostOps0]
  after_results_simp
  rw [gather_formats]
  rfl

theorem e0_x (c : Dev nD) : (V1 m ρ c main_arg0 : S100000x64.Idx → EReal) = (m ((c : Thread nD τ).loc main_arg0)) := by
  dsimp only [V1, W1, hostOps0]
  after_results_simp <;> rfl

theorem e0_s (c : Dev nD) : (V1 m ρ c main_v12 : S100000x1.Idx → EReal) = scales (m ((c : Thread nD τ).loc main_arg1)) := by
  dsimp only [V1, W1, hostOps0]
  after_results_simp <;> rfl

theorem e0_wl (c : Dev nD) : (V1 m ρ c main_v25 : S64x64.Idx → EReal)
    = transpose S64x64 [1, 0] (m ((c : Thread nD τ).loc main_arg2)) transposes_S64x64_S64x64_1_0 := by
  dsimp only [V1, W1, hostOps0]
  after_results_simp <;> rfl

theorem e0_b (c : Dev nD) : (V1 m ρ c main_v27 : S1x64.Idx → EReal) = shapeCast S1x64 (m ((c : Thread nD τ).loc main_arg3)) shapeCasts_S64_S1x64 := by
  dsimp only [V1, W1, hostOps0]
  after_results_simp <;> rfl

theorem e0_wr (c : Dev nD) : (V1 m ρ c main_v26 : S64x64.Idx → EReal)
    = transpose S64x64 [1, 0] (m ((c : Thread nD τ).loc main_arg4)) transposes_S64x64_S64x64_1_0 := by
  dsimp only [V1, W1, hostOps0]
  after_results_simp <;> rfl

/-- The first region leaves the hidden layer in its output array. -/
theorem hid (c : Dev nD) : (W2 m ρ c (Proc.devRef .tc main_v28) : S100000x64.Idx → EReal)
    = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Cert.KernelIdeal.Regions.final0 (V1 m ρ) c).trans ?_)
  rw [e0_agg, e0_x, e0_s, e0_wl, e0_b, e0_wr]
  rfl

/-! ## What the first region does not touch -/

theorem w2_src (c : Dev nD) : (W2 m ρ c (Proc.devRef .tc main_v1) : S1600000.Idx → Elt Ideal .i32) = srcVec (m ((c : Thread nD τ).loc main_arg1)) := by
  refine (W2_of_ne m ρ c main_v1 (by decide)).trans ?_
  dsimp only [W1, hostOps0]
  after_results_simp <;> rfl

theorem w2_dst (c : Dev nD) : (W2 m ρ c (Proc.devRef .tc main_v3) : S1600000.Idx → Elt Ideal .i32) = dstVec (m ((c : Thread nD τ).loc main_arg1)) := by
  refine (W2_of_ne m ρ c main_v3 (by decide)).trans ?_
  dsimp only [W1, hostOps0]
  after_results_simp <;> rfl

theorem w2_s (c : Dev nD) : (W2 m ρ c (Proc.devRef .tc main_v12) : S100000x1.Idx → EReal) = scales (m ((c : Thread nD τ).loc main_arg1)) :=
  (W2_arr m ρ c 2).trans (((dat0 (V1 m ρ) c).arrAt_in 2 rfl _).trans ((A_eq0 (V1 m ρ) c 2).trans (e0_s m ρ c)))

theorem w2_a5 (c : Dev nD) : (W2 m ρ c (Proc.devRef .tc main_arg5) : S2x64.Idx → EReal) = (m ((c : Thread nD τ).loc main_arg5)) := by
  refine (W2_of_ne m ρ c main_arg5 (by decide)).trans ?_
  dsimp only [W1, hostOps0]
  after_results_simp <;> rfl

theorem w2_a6 (c : Dev nD) : (W2 m ρ c (Proc.devRef .tc main_arg6) : S2.Idx → EReal) = (m ((c : Thread nD τ).loc main_arg6)) := by
  refine (W2_of_ne m ρ c main_arg6 (by decide)).trans ?_
  dsimp only [W1, hostOps0]
  after_results_simp <;> rfl

theorem w2_a7 (c : Dev nD) : (W2 m ρ c (Proc.devRef .tc main_arg7) : S2x64.Idx → EReal) = (m ((c : Thread nD τ).loc main_arg7)) := by
  refine (W2_of_ne m ρ c main_arg7 (by decide)).trans ?_
  dsimp only [W1, hostOps0]
  after_results_simp <;> rfl

/-! ## What the second region is entered with -/

theorem e1_agg (c : Dev nD) : (V3 m ρ c main_v40 : S100000x64.Idx → EReal)
    = aggregate (m ((c : Thread nD τ).loc main_arg1)) (hidden (m ((c : Thread nD τ).loc main_arg0)) (m ((c : Thread nD τ).loc main_arg1)) (m ((c : Thread nD τ).loc main_arg2)) (m ((c : Thread nD τ).loc main_arg3)) (m ((c : Thread nD τ).loc main_arg4))) := by
  dsimp only [V3, W3, hostOps1]
  after_results_simp
  rw [w2_src, w2_dst, hid, gather_formats]
  rfl

theorem e1_x (c : Dev nD) : (V3 m ρ c main_v28 : S100000x64.Idx → EReal)
    = hidden (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V3, W3, hostOps1]
  after_results_simp
  exact hid m ρ c

theorem e1_s (c : Dev nD) : (V3 m ρ c main_v12 : S100000x1.Idx → EReal) = scales (m ((c : Thread nD τ).loc main_arg1)) := by
  dsimp only [V3, W3, hostOps1]
  after_results_simp
  exact w2_s m ρ c

theorem e1_wl (c : Dev nD) : (V3 m ρ c main_v41 : S64x2.Idx → EReal)
    = transpose S64x2 [1, 0] (m ((c : Thread nD τ).loc main_arg5)) transposes_S2x64_S64x2_1_0 := by
  dsimp only [V3, W3, hostOps1]
  after_results_simp
  rw [w2_a5]

theorem e1_b (c : Dev nD) : (V3 m ρ c main_v43 : S1x2.Idx → EReal) = shapeCast S1x2 (m ((c : Thread nD τ).loc main_arg6)) shapeCasts_S2_S1x2 := by
  dsimp only [V3, W3, hostOps1]
  after_results_simp
  rw [w2_a6]
  rfl

theorem e1_wr (c : Dev nD) : (V3 m ρ c main_v42 : S64x2.Idx → EReal)
    = transpose S64x2 [1, 0] (m ((c : Thread nD τ).loc main_arg7)) transposes_S2x64_S64x2_1_0 := by
  dsimp only [V3, W3, hostOps1]
  after_results_simp
  rw [w2_a7]

/-- The second region leaves the output layer in the result buffer. -/
theorem result (c : Dev nD) : (W4 m ρ c (Proc.devRef .tc main_v44) : S100000x2.Idx → EReal)
    = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((Cert.KernelIdeal.Regions.final1 (V3 m ρ) c).trans ?_)
  rw [e1_agg, e1_x, e1_s, e1_wl, e1_b, e1_wr]
  rfl

/-- Every execution of the kernel program ends with the network's output in the result buffer and the arguments
    as launched. -/
theorem run : θ_run (defs (F := Ideal)) (onTc (τ := τ) (main (F := Ideal))) ⟨m, fun _ => 0, ρ⟩ (fun r => ∀ c : Dev nD,
      r.2.mem ((c.tc : Thread nD τ).loc main_v44)
        = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Named.run m ρ)

end Cert.KernelIdeal.Whole

end
-- ==== Proof.RValue.lean ====
/-
  The reference program's result as the network's output. The reference spells each layer on the host: the
  aggregation divided, entry by entry, by the per-node divisor broadcast across the columns, a dot_general with the
  transposed weights, the bias vector broadcast to every row, a second dot_general, and after the first layer a maximum
  with a broadcast zero. Its edge columns, divisor and aggregation are the same operations the kernel program's host
  side applies. Because the divisor is at least 1, dividing by it is multiplying by 1 / divisor, so each layer is the
  layer function with the column of scales, and the whole result is the network's output.
-/
import proofs.«109293_j17532056502368_2_alg».proof.Proof.Gen.ReferenceIdeal.Run
import proofs.«109293_j17532056502368_2_alg».proof.Proof.KNet

set_option maxRecDepth 16384

noncomputable section

namespace Cert.ReferenceIdeal.RefValue

open Idealize.ShloMosaic Idealize.ShloMosaic.TcCoe Idealize.SL.Sem
open Cert.ReferenceIdeal Cert.ReferenceIdeal.Facts₀ Cert.ReferenceIdeal.Value Cert.Sage
open Cert.KernelIdeal.Net (aggregate divisor onesVec scales divisor_ne_zero onesVec_apply)

/-- The hidden layer as the reference spells it. -/
def hiddenHost (x : FVec Ideal S100000x64 .f32) (e : (⟨S2x1600000, .i32⟩ : BufTy).Contents (Elt Ideal))
    (w1l : FVec Ideal S64x64 .f32) (b1 : FVec Ideal S64 .f32) (w1r : FVec Ideal S64x64 .f32) : FVec Ideal S100000x64 .f32 :=
  maximumf (addf (addf (Host.dotGeneral dot_S100000x64_S64x64_S100000x64_1_0_0_1_n_n none
      (Host.divf (aggregate e x) (broadcastInDim S100000x64 ![0, 1] bcast_S100000x1_S100000x64_0_1
        (broadcastInDim S100000x1 ![0] bcast_S100000_S100000x1_0 (divisor e))))
      (transpose S64x64 [1, 0] w1l transposes_S64x64_S64x64_1_0))
      (broadcastInDim S100000x64 ![0, 1] bcast_S1x64_S100000x64_0_1 (broadcastInDim S1x64 ![1] bcast_S64_S1x64_1 b1)))
      (Host.dotGeneral dot_S100000x64_S64x64_S100000x64_1_0_0_1_n_n none x
        (transpose S64x64 [1, 0] w1r transposes_S64x64_S64x64_1_0)))
    (broadcastInDim S100000x64 ![] bcast_S_S100000x64 (constant (F := Ideal) S_ .f32 0x00000000#32))

/-- The output as the reference spells it. -/
def outputHost (x : FVec Ideal S100000x64 .f32) (e : (⟨S2x1600000, .i32⟩ : BufTy).Contents (Elt Ideal))
    (w1l : FVec Ideal S64x64 .f32) (b1 : FVec Ideal S64 .f32) (w1r : FVec Ideal S64x64 .f32)
    (w2l : FVec Ideal S2x64 .f32) (b2 : FVec Ideal S2 .f32) (w2r : FVec Ideal S2x64 .f32) : FVec Ideal S100000x2 .f32 :=
  addf (addf (Host.dotGeneral dot_S100000x64_S64x2_S100000x2_1_0_0_1_n_n none
      (Host.divf (aggregate e (hiddenHost x e w1l b1 w1r)) (broadcastInDim S100000x64 ![0, 1] bcast_S100000x1_S100000x64_0_1
        (broadcastInDim S100000x1 ![0] bcast_S100000_S100000x1_0 (divisor e))))
      (transpose S64x2 [1, 0] w2l transposes_S2x64_S64x2_1_0))
      (broadcastInDim S100000x2 ![0, 1] bcast_S1x2_S100000x2_0_1 (broadcastInDim S1x2 ![1] bcast_S2_S1x2_1 b2)))
    (Host.dotGeneral dot_S100000x64_S64x2_S100000x2_1_0_0_1_n_n none (hiddenHost x e w1l b1 w1r)
      (transpose S64x2 [1, 0] w2r transposes_S2x64_S64x2_1_0))

/-- The reference's hidden layer is the network's. -/
theorem hiddenHost_eq (x : FVec Ideal S100000x64 .f32) (e : (⟨S2x1600000, .i32⟩ : BufTy).Contents (Elt Ideal))
    (w1l : FVec Ideal S64x64 .f32) (b1 : FVec Ideal S64 .f32) (w1r : FVec Ideal S64x64 .f32) :
    hiddenHost x e w1l b1 w1r = Cert.KernelIdeal.Net.hidden x e w1l b1 w1r := by
  unfold hiddenHost Cert.KernelIdeal.Net.hidden
  simp only [Host.dotGeneral]
  rw [host_layer dot_S100000x64_S64x64_S100000x64_1_0_0_1_n_n rfl rfl rfl rfl rfl rfl none .single (aggregate e x) x
    (divisor e) onesVec _ _ b1 bcast_S100000_S100000x1_0 bcast_S100000x1_S100000x64_0_1 bcast_S64_S1x64_1
    bcast_S1x64_S100000x64_0_1 Cert.KernelIdeal.Facts₀.shapeCasts_S100000_S100000x1
    (fun p => divisor_ne_zero e _) (fun p => onesVec_apply _), host_reluLayer]
  rw [Cert.Lib.RowVector.bcastInDim_eq_asRow, Cert.Lib.RowVector.shapeCast_eq_asRow]
  rfl

/-- The reference's output is the network's. -/
theorem outputHost_eq (x : FVec Ideal S100000x64 .f32) (e : (⟨S2x1600000, .i32⟩ : BufTy).Contents (Elt Ideal))
    (w1l : FVec Ideal S64x64 .f32) (b1 : FVec Ideal S64 .f32) (w1r : FVec Ideal S64x64 .f32)
    (w2l : FVec Ideal S2x64 .f32) (b2 : FVec Ideal S2 .f32) (w2r : FVec Ideal S2x64 .f32) :
    outputHost x e w1l b1 w1r w2l b2 w2r = Cert.KernelIdeal.Net.output x e w1l b1 w1r w2l b2 w2r := by
  unfold outputHost Cert.KernelIdeal.Net.output
  rw [hiddenHost_eq]
  simp only [Host.dotGeneral]
  rw [host_layer dot_S100000x64_S64x2_S100000x2_1_0_0_1_n_n rfl rfl rfl rfl rfl rfl none .single
    (aggregate e (Cert.KernelIdeal.Net.hidden x e w1l b1 w1r)) (Cert.KernelIdeal.Net.hidden x e w1l b1 w1r)
    (divisor e) onesVec _ _ b2 bcast_S100000_S100000x1_0 bcast_S100000x1_S100000x64_0_1 bcast_S2_S1x2_1
    bcast_S1x2_S100000x2_0_1 Cert.KernelIdeal.Facts₀.shapeCasts_S100000_S100000x1
    (fun p => divisor_ne_zero e _) (fun p => onesVec_apply _)]
  rw [Cert.Lib.RowVector.bcastInDim_eq_asRow, Cert.Lib.RowVector.shapeCast_eq_asRow]
  rfl

set_option maxHeartbeats 1000000 in
/-- The reference run's result term is the reference's spelling of the output at the argument arrays. -/
theorem res_eq (m : (ℓ : Loc nD τ sig) → Buf (Elt Ideal) ℓ) (c : Dev nD) :
    res_main_v58 m c = outputHost (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v58
  rfl

/-- So the reference's result is the network's output at the argument arrays. -/
theorem res_output (m : (ℓ : Loc nD τ sig) → Buf (Elt Ideal) ℓ) (c : Dev nD) :
    res_main_v58 m c = Cert.KernelIdeal.Net.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (res_eq m c).trans (outputHost_eq _ _ _ _ _ _ _ _)

end Cert.ReferenceIdeal.RefValue

end
-- ==== Proof.lean ====
/-
  A two-layer mean-aggregation graph network, computed by a program with two pipelined kernel regions, against its
  plain array reference, on the extended reals.

  Both programs count the edges into each node, take the larger of the count and 1 as the divisor, and aggregate a node's
  neighbours by a gather at the edge sources and a scatter-sum at the edge destinations. The reference divides the
  aggregation by the divisor and applies  mean · Wlᵀ + b + x · Wrᵀ  (joined with zero after the first layer). The kernel
  program precomputes the column of scales 1 / divisor and, in each region, multiplies the aggregation's rows by their
  scales inside the layer body, block of 5000 rows by block. The two agree because a quotient by a nonzero number is
  the product with its reciprocal — the divisor is at least 1, and nothing need be finite — and because an entry
  of a layer depends on one row of its row-blocked inputs, so the blocks a region writes are the rows of one
  whole-array layer. The gather and the scatter-sum are the same operations of the same operands on both sides and
  are never opened; the kernel program's sixteen-bit copies are the arrays themselves on the extended reals.

  The frames of the two kernel programs are the generated ones; the reference's frame is its run with the result
  dropped; the idealization's ledger is empty.
-/
import proofs.«109293_j17532056502368_2_alg».proof.Defs
import proofs.«109293_j17532056502368_2_alg».proof.Proof.Gen.Kernel
import proofs.«109293_j17532056502368_2_alg».proof.Proof.Gen.Kernel.Skeleton
import proofs.«109293_j17532056502368_2_alg».proof.Proof.Gen.Kernel.Launch
import proofs.«109293_j17532056502368_2_alg».proof.Proof.Gen.Kernel.Points
import proofs.«109293_j17532056502368_2_alg».proof.Proof.Gen.Kernel.Frame
import proofs.«109293_j17532056502368_2_alg».proof.Proof.Gen.KernelIdeal
import proofs.«109293_j17532056502368_2_alg».proof.Proof.Gen.KernelIdeal.Skeleton
import proofs.«109293_j17532056502368_2_alg».proof.Proof.Gen.KernelIdeal.Launch
import proofs.«109293_j17532056502368_2_alg».proof.Proof.Gen.KernelIdeal.Points
import proofs.«109293_j17532056502368_2_alg».proof.Proof.Gen.KernelIdeal.Frame
import proofs.«109293_j17532056502368_2_alg».proof.Proof.Gen.ReferenceIdeal
import proofs.«109293_j17532056502368_2_alg».proof.Proof.Gen.Pre_finite_inputs
import proofs.«109293_j17532056502368_2_alg».proof.Proof.Gen.ReferenceIdeal.Run
import proofs.«109293_j17532056502368_2_alg».proof.Proof.Gen.ReferenceIdeal.Read
import proofs.«109293_j17532056502368_2_alg».proof.Proof.KValue
import proofs.«109293_j17532056502368_2_alg».proof.Proof.RValue
import Idealize.ShloMosaic.Adequacy
import Idealize.ShloMosaic.Init

noncomputable section

namespace Cert.Proof

open Idealize.ShloMosaic Idealize.SL.Sem

/-- Every execution of the word-level kernel program terminates without a fault, the arguments unchanged. -/
theorem frame_kernel : Cert.frame_Kernel (hKernel := Cert.Kernel.Gen.facts)
    (hPre_finite_inputs := Cert.Pre_finite_inputs.Gen.facts) :=
  fun m ρ _ => Cert.Kernel.Gen.frame m ρ

/-- The same for the idealized kernel program. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference's frame is its run, the result dropped. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the arguments both programs end with the network's output of the argument arrays in
    their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Net.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.res_output, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
